-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S32x256x128 : Shape := ⟨3, ![32, 256, 128]⟩
abbrev S128x64x256 : Shape := ⟨3, ![128, 64, 256]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_
  bcast_S_S128x64x256 : S_.BroadcastsInDim S128x64x256 (![] : Fin 0 → Fin S128x64x256.rank)
  reducesTo_S128x64x256_S_d0_1_2 : S128x64x256.ReducesTo [0, 1, 2] S_

variable [Facts]

def fn {F : FTy → Type} [FloatOps F] (main_arg0 : FVec F S32x2048x128 .f32) (main_arg1 : FVec F S32x256x128 .f32) (main_arg2 : FVec F S128x64x256 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x256x128 .f32 := Host.absf main_arg1
  let main_cst_0 : FVec F S_ .f32 := constant S_ .f32 0x7F800000#32
  let main_v5 : FVec F S32x256x128 .f32 := broadcastInDim S32x256x128 ![] bcast_S_S32x256x128 main_cst_0
  let main_v6 : IVec S32x256x128 1 := cmpf .olt main_v4 main_v5
  let main_c_1 : IVec S_ 1 := constantI S_ 1 1#1
  let main_v7 : IVec S_ 1 := (fun x v => Host.reduce IntOp.andi x v reducesTo_S32x256x128_S_d0_1_2 h_S_) main_v6 main_c_1
  let main_v8 : IVec S_ 1 := andi main_v3 main_v7
  let main_v9 : FVec F S128x64x256 .f32 := Host.absf main_arg2
  let main_cst_2 : FVec F S_ .f32 := constant S_ .f32 0x7F800000#32
  let main_v10 : FVec F S128x64x256 .f32 := broadcastInDim S128x64x256 ![] bcast_S_S128x64x256 main_cst_2
  let main_v11 : IVec S128x64x256 1 := cmpf .olt main_v9 main_v10
  let main_c_3 : IVec S_ 1 := constantI S_ 1 1#1
  let main_v12 : IVec S_ 1 := (fun x v => Host.reduce IntOp.andi x v reducesTo_S128x64x256_S_d0_1_2 h_S_) main_v11 main_c_3
  let main_v13 : IVec S_ 1 := andi main_v8 main_v12
  main_v13
-- ==== Kernel.lean ====
abbrev S32x2048x128 : Shape := ⟨3, ![32, 2048, 128]⟩
abbrev S32x256x128 : Shape := ⟨3, ![32, 256, 128]⟩
abbrev S128x64x256 : Shape := ⟨3, ![128, 64, 256]⟩
abbrev S_ : Shape := ⟨0, ![]⟩
abbrev S128x256 : Shape := ⟨2, ![128, 256]⟩
abbrev S32x2048x2048 : Shape := ⟨3, ![32, 2048, 2048]⟩
abbrev S1x2048x128 : Shape := ⟨3, ![1, 2048, 128]⟩
abbrev S1x256x128 : Shape := ⟨3, ![1, 256, 128]⟩
abbrev S1x1024x2048 : Shape := ⟨3, ![1, 1024, 2048]⟩
abbrev S2048x128 : Shape := ⟨2, ![2048, 128]⟩
abbrev S2048x256 : Shape := ⟨2, ![2048, 256]⟩
abbrev S256x128 : Shape := ⟨2, ![256, 128]⟩
abbrev S1x1024x128 : Shape := ⟨3, ![1, 1024, 128]⟩
abbrev S1024x128 : Shape := ⟨2, ![1024, 128]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S32x2048x128, .f32⟩
  | .hbm, ⟨1, _⟩ => ⟨S32x256x128, .f32⟩
  | .hbm, ⟨2, _⟩ => ⟨S128x64x256, .f32⟩
  | .hbm, ⟨3, _⟩ => ⟨S_, .f32⟩
  | .hbm, ⟨4, _⟩ => ⟨S128x256, .f32⟩
  | .hbm, ⟨5, _⟩ => ⟨S32x2048x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x256x128, .f32⟩
  | .local _ .vmem, ⟨3, _⟩ => ⟨S1x256x128, .f32⟩
  | .local _ .vmem, ⟨4, _⟩ => ⟨S128x256, .f32⟩
  | .local _ .vmem, ⟨5, _⟩ => ⟨S1x1024x2048, .f32⟩
  | .local _ .vmem, ⟨6, _⟩ => ⟨S1x1024x2048, .f32⟩
  | .local _ .vmem, ⟨7, _⟩ => ⟨S2048x128, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S128x64x256_S128x256_d1 : S128x64x256.ReducesTo [1] S128x256
  h_S_ : 0 < S_.numel
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S1x1024x128 : 0 < S1x1024x128.numel
  shapeCasts_S1x1024x128_S1024x128 : S1x1024x128.ShapeCasts S1024x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S1024x128_S2048x128_S1024x2048_1_1_0_0_n_n_wf : DotDims.WF S1024x128 S2048x128 S1024x2048 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1024x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x2048x128.size a
  hwx0_0 : ∀ i : grid0.Coords, EltTy.bits .f32 = 32 ∨ (Rect.block (s := S32x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S32x256x128.size a
  hwx0_1 : ∀ i : grid0.Coords, EltTy.bits .f32 = 32 ∨ (Rect.block (s := S32x256x128) S1x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S32x2048x2048.size a
  hwx0_3 : ∀ i : grid0.Coords, EltTy.bits .f32 = 32 ∨ (Rect.block (s := S32x2048x2048) S1x1024x2048.size (cc0_transform_3 i) (hinb0_3 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S32x256x128 : Shape := ⟨3, ![32, 256, 128]⟩
abbrev S128x64x256 : Shape := ⟨3, ![128, 64, 256]⟩
abbrev S_ : Shape := ⟨0, ![]⟩
abbrev S128x256 : Shape := ⟨2, ![128, 256]⟩
abbrev S32x2048x256 : Shape := ⟨3, ![32, 2048, 256]⟩
abbrev S32x2048x2048 : Shape := ⟨3, ![32, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x256x128, .f32⟩
  | .hbm, ⟨2, _⟩ => ⟨S128x64x256, .f32⟩
  | .hbm, ⟨3, _⟩ => ⟨S_, .f32⟩
  | .hbm, ⟨4, _⟩ => ⟨S128x256, .f32⟩
  | .hbm, ⟨5, _⟩ => ⟨S32x2048x256, .f32⟩
  | .hbm, ⟨6, _⟩ => ⟨S32x2048x128, .f32⟩
  | .hbm, ⟨7, _⟩ => ⟨S32x2048x2048, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S128x64x256_S128x256_d1 : S128x64x256.ReducesTo [1] S128x256
  h_S_ : 0 < S_.numel
  dot_S32x2048x128_S128x256_S32x2048x256_2_0_01_1_n_n_wf : DotDims.WF S32x2048x128 S128x256 S32x2048x256 [2] [0] [0, 1] [1] [] []
  dot_S32x2048x256_S32x256x128_S32x2048x128_2_1_1_2_0_0_wf : DotDims.WF S32x2048x256 S32x256x128 S32x2048x128 [2] [1] [1] [2] [0] [0]
  dot_S32x2048x128_S32x2048x128_S32x2048x2048_2_2_1_1_0_0_wf : DotDims.WF S32x2048x128 S32x2048x128 S32x2048x2048 [2] [2] [1] [1] [0] [0]

variable [Facts₀]

def dot_S32x2048x128_S128x256_S32x2048x256_2_0_01_1_n_n : DotDims S32x2048x128 S128x256 S32x2048x256 where
  lhsContracting := [2]
  rhsContracting := [0]
  lhsNonContracting := [0, 1]
  rhsNonContracting := [1]
  lhsBatch := []
  rhsBatch := []
  wf := dot_S32x2048x128_S128x256_S32x2048x256_2_0_01_1_n_n_wf
def dot_S32x2048x256_S32x256x128_S32x2048x128_2_1_1_2_0_0 : DotDims S32x2048x256 S32x256x128 S32x2048x128 where
  lhsContracting := [2]
  rhsContracting := [1]
  lhsNonContracting := [1]
  rhsNonContracting := [2]
  lhsBatch := [0]
  rhsBatch := [0]
  wf := dot_S32x2048x256_S32x256x128_S32x2048x128_2_1_1_2_0_0_wf
def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf

class Facts : Prop extends Facts₀ where

variable [Facts]
-- ==== Proof.Pieces.lean ====
/-
  What one run of the kernel body leaves behind, as values of what it loaded — at any float instance.

  At the first row tile of a batch the body writes the batch's memory vectors into the scratch: the product of
  (keys · summed weights) with the values, as one term of the three loaded blocks. At every row tile it writes
  the output block: the product of the tile's 1024 key rows with the transposed memory vectors it reads back
  from the scratch — the ones just written at the first tile, the ones the tile before left otherwise.
-/
import proofs.«167323_j86887188398971_2_alg».proof.Proof.Gen.KernelIdeal.Frame
import Idealize.ShloMosaic.Lib.Pipeline.Value
import Idealize.ShloMosaic.Lib.Tactic

noncomputable section

namespace Cert.Holo.Kern

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 rows of the batch's key block that the row tile of grid point `i` multiplies: rows
    `1024 · i₁ …` of the block. -/
def keyRows (i : grid0.Coords) (x0 : Vec F S1x2048x128 .f32) : Vec F S1x1024x128 .f32 :=
  View.ld x0 (Rect.unit (s := S1x2048x128) (k0_off1 i) S1x1024x128.size (Facts₀.k0_off1_inb i))

/-- FIRST ROW TILE: the scratch ends holding the memory vectors of the loaded key, weight and value blocks. -/
theorem scratch_first (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S128x256 .f32) (harg4 : arg4.IsWhole) (arg5 : Memref sig .tc .vmem S1x1024x2048 .f32) (harg5 : arg5.IsWhole) (arg6 : Memref sig .tc .vmem S2048x128 .f32) (harg6 : arg6.IsWhole) (hc0 : cond0_0 i)
    (x0 : Vec F S1x2048x128 .f32) (x1 : Vec F S1x256x128 .f32) (x2 : Vec F S128x256 .f32) :
    sout0_A_0 c i arg2 harg2 arg3 harg3 arg4 harg4 arg5 harg5 arg6 harg6 hc0 x0 x1 x2 = k0_pay1 x0 x2 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, harg4.read_unread,
    View.ld_unit_zero (S := S1x2048x128) hz3, View.ld_unit_zero (S := S1x256x128) hz3, View.ld_unit_zero (S := S128x256) hz2]

/-- FIRST ROW TILE: the output block is the tile's key rows against the memory vectors just written. -/
theorem out_first (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S128x256 .f32) (harg4 : arg4.IsWhole) (arg5 : Memref sig .tc .vmem S1x1024x2048 .f32) (harg5 : arg5.IsWhole) (arg6 : Memref sig .tc .vmem S2048x128 .f32) (harg6 : arg6.IsWhole) (hc0 : cond0_0 i)
    (x0 : Vec F S1x2048x128 .f32) (x1 : Vec F S1x256x128 .f32) (x2 : Vec F S128x256 .f32) :
    out0_A_3 c i arg2 harg2 arg3 harg3 arg4 harg4 arg5 harg5 arg6 harg6 hc0 x0 x1 x2 = k0_pay2 (keyRows i x0) (k0_pay1 x0 x2 x1) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3, View.readCov_unit_zero (S := S2048x128) _ hz2]
  simp only [View.readAt_eq_ld, harg2.read_unread, harg3.read_unread, harg4.read_unread,
    View.ld_unit_zero (S := S1x2048x128) hz3, View.ld_unit_zero (S := S1x256x128) hz3, View.ld_unit_zero (S := S128x256) hz2]
  rfl

/-- LATER ROW TILES: the output block is the tile's key rows against the memory vectors the scratch holds. -/
theorem out_later (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S128x256 .f32) (harg4 : arg4.IsWhole) (arg5 : Memref sig .tc .vmem S1x1024x2048 .f32) (harg5 : arg5.IsWhole) (arg6 : Memref sig .tc .vmem S2048x128 .f32) (harg6 : arg6.IsWhole) (hc0 : ¬cond0_0 i)
    (x0 : Vec F S1x2048x128 .f32) (x1 : Vec F S1x256x128 .f32) (x2 : Vec F S128x256 .f32) (xs0 : Vec F S2048x128 .f32) :
    out0_B_3 c i arg2 harg2 arg3 harg3 arg4 harg4 arg5 harg5 arg6 harg6 hc0 x0 x1 x2 xs0 = k0_pay2 (keyRows i x0) xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz3]
  simp only [View.readAt_eq_ld, harg2.read_unread, harg6.read_unread, View.ld_unit_zero (S := S2048x128) hz2]
  rfl

end Cert.Holo.Kern

end
-- ==== Proof.Spec.lean ====
/-
  The result both programs compute, as plain sums over the extended reals.

  With `w2 n a` the weights already summed over their middle axis, for a batch `b`:
    scores b l a = ∑ n, key (b, l, n) · w2 (n, a)
    mem    b l d = ∑ a, scores b l a · value (b, a, d)
    q (b, l, m)  = ∑ n, key (b, l, n) · mem b m n
  Both programs form `w2` by the same host reduction of the weights, so it stays a parameter here and the
  sum over the middle axis is never opened.
-/
import Idealize.ShloMosaic.PureOps.Ideal
import Idealize.ShloMosaic.Lib.ValueIdx

noncomputable section

namespace Cert.Holo

open Idealize.ShloMosaic Idealize.ShloMosaic.ValueIdx

/-- Keys: batch × position × key dimension. -/
abbrev SKey : Shape := ⟨3, ![32, 2048, 128]⟩
/-- Values: batch × action × key dimension. -/
abbrev SVal : Shape := ⟨3, ![32, 256, 128]⟩
/-- The weights summed over their middle axis: key dimension × action. -/
abbrev SW2 : Shape := ⟨2, ![128, 256]⟩
/-- The result: batch × position × position. -/
abbrev SOut : Shape := ⟨3, ![32, 2048, 2048]⟩

/-- The score of action `a` at position `l` of batch `b`. -/
def scores (key : SKey.Idx → EReal) (w2 : SW2.Idx → EReal) (b : Fin 32) (l : Fin 2048) (a : Fin 256) : EReal :=
  ∑ n : Fin 128, key (ix3 b l n) * w2 (ix2 n a)

/-- The memory vector of position `l` of batch `b`, coordinate `d`: the values weighted by the scores. -/
def mem (key : SKey.Idx → EReal) (value : SVal.Idx → EReal) (w2 : SW2.Idx → EReal)
    (b : Fin 32) (l : Fin 2048) (d : Fin 128) : EReal :=
  ∑ a : Fin 256, scores key w2 b l a * value (ix3 b a d)

/-- The result at `(b, l, m)`: the key at position `l` against the memory vector of position `m`. -/
def qAt (key : SKey.Idx → EReal) (value : SVal.Idx → EReal) (w2 : SW2.Idx → EReal)
    (b : Fin 32) (l m : Fin 2048) : EReal :=
  ∑ n : Fin 128, key (ix3 b l n) * mem key value w2 b m n

/-- The whole result array. -/
def qvals (key : SKey.Idx → EReal) (value : SVal.Idx → EReal) (w2 : SW2.Idx → EReal) : SOut.Idx → EReal :=
  fun i => qAt key value w2 (i 0) (i 1) (i 2)

theorem qvals_ix3 (key : SKey.Idx → EReal) (value : SVal.Idx → EReal) (w2 : SW2.Idx → EReal)
    (b : Fin 32) (l m : Fin 2048) : qvals key value w2 (ix3 b l m) = qAt key value w2 b l m := rfl

/-- The memory vectors of one batch, as a 2048 × 128 block: what the kernel keeps between the row tiles. -/
def memBlock (key : SKey.Idx → EReal) (value : SVal.Idx → EReal) (w2 : SW2.Idx → EReal) (b : Fin 32) :
    (⟨2, ![2048, 128]⟩ : Shape).Idx → EReal :=
  fun j => mem key value w2 b (j 0) (j 1)

theorem memBlock_ix2 (key : SKey.Idx → EReal) (value : SVal.Idx → EReal) (w2 : SW2.Idx → EReal)
    (b : Fin 32) (l : Fin 2048) (d : Fin 128) : memBlock key value w2 b (ix2 l d) = mem key value w2 b l d := rfl

end Cert.Holo

end
-- ==== Proof.Blocks.lean ====
/-
  Where the blocks of a grid point sit in the arrays.

  The grid has 64 points, batch-major: point `t` is row tile `t % 2` of batch `t / 2`. At point `t` the key
  window holds all 2048 positions of batch `t / 2`, the value window all 256 actions of batch `t / 2`, the
  weight window the whole summed-weight array, and the output window rows `1024 · (t % 2) …` of batch
  `t / 2`'s result. A block's entry `y` is the array's entry at (block index × block size + y) on each axis;
  the block indices are decided once over the 64 points.
-/
import proofs.«167323_j86887188398971_2_alg».proof.Proof.Pieces
import proofs.«167323_j86887188398971_2_alg».proof.Proof.Spec
import Idealize.ShloMosaic.Lib.ValueIdx

noncomputable section

namespace Cert.Holo.Kern

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The keys, the values and the summed weights as the kernel region finds them. -/
abbrev keyArr (c : Dev nD) : SKey.Idx → EReal := m ((c : Thread nD τ).loc main_arg0)
abbrev valArr (c : Dev nD) : SVal.Idx → EReal := m ((c : Thread nD τ).loc main_arg1)
abbrev w2Arr (c : Dev nD) : SW2.Idx → EReal := V m c main_v0

/-- The batch of grid point `t`. -/
def bOf (t : Fin cfg0.N) : Fin 32 := ⟨t.val / 2, by have := t.isLt; have hN : cfg0.N = 64 := N_0; omega⟩
/-- The position, in its batch, of row `r` of grid point `t`'s row tile. -/
def rowOf (t : Fin cfg0.N) (r : Fin 1024) : Fin 2048 := ⟨1024 * (t.val % 2) + r.val, by have := r.isLt; omega⟩

/-- The block indices of the four windows and the row offset the body computes, at every grid point. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 2 ∧ win0_3.index t (1 : Fin 3) = t.val % 2 ∧ win0_3.index t (2 : Fin 3) = 0
    ∧ k0_off1 (grid0.coords t) (0 : Fin 3) = 0 ∧ k0_off1 (grid0.coords t) (1 : Fin 3) = 1024 * (t.val % 2)
    ∧ k0_off1 (grid0.coords t) (2 : Fin 3) = 0 :=
  (by decide +kernel : ∀ t : Fin grid0.N, _)

/-- The key block of point `t` is batch `t / 2`'s keys. -/
theorem key_block (c : Dev nD) (t : Fin cfg0.N) (p : Fin 2048) (n : Fin 128) :
    (iblk m c 0 t : Vec Ideal S1x2048x128 .f32) (ix3 (0 : Fin 1) p n) = keyArr m c (ix3 (bOf t) p n) := by
  unfold iblk
  rw [View.read_apply]
  show V m c main_arg0 _ = m ((c : Thread nD τ).loc main_arg0) _
  rw [V_main_arg0]
  refine congrArg (m ((c : Thread nD τ).loc main_arg0)) (funext fun a => Fin.ext ?_)
  obtain ⟨e0, e1, e2, -⟩ := idx_facts t
  match a with
  | ⟨0, _⟩ => show win0_0.index t (0 : Fin 3) * 1 + 1 * 0 = t.val / 2; omega
  | ⟨1, _⟩ => show win0_0.index t (1 : Fin 3) * 2048 + 1 * p.val = p.val; omega
  | ⟨2, _⟩ => show win0_0.index t (2 : Fin 3) * 128 + 1 * n.val = n.val; omega

/-- The value block of point `t` is batch `t / 2`'s values. -/
theorem val_block (c : Dev nD) (t : Fin cfg0.N) (a : Fin 256) (d : Fin 128) :
    (iblk m c 1 t : Vec Ideal S1x256x128 .f32) (ix3 (0 : Fin 1) a d) = valArr m c (ix3 (bOf t) a d) := by
  unfold iblk
  rw [View.read_apply]
  show V m c main_arg1 _ = m ((c : Thread nD τ).loc main_arg1) _
  rw [V_main_arg1]
  refine congrArg (m ((c : Thread nD τ).loc main_arg1)) (funext fun e => Fin.ext ?_)
  obtain ⟨-, -, -, e0, e1, e2, -⟩ := idx_facts t
  match e with
  | ⟨0, _⟩ => show win0_1.index t (0 : Fin 3) * 1 + 1 * 0 = t.val / 2; omega
  | ⟨1, _⟩ => show win0_1.index t (1 : Fin 3) * 256 + 1 * a.val = a.val; omega
  | ⟨2, _⟩ => show win0_1.index t (2 : Fin 3) * 128 + 1 * d.val = d.val; omega

/-- The weight block of every point is the whole summed-weight array. -/
theorem w2_block (c : Dev nD) (t : Fin cfg0.N) (n : Fin 128) (a : Fin 256) :
    (iblk m c 2 t : Vec Ideal S128x256 .f32) (ix2 n a) = w2Arr m c (ix2 n a) := by
  unfold iblk
  rw [View.read_apply]
  show V m c main_v0 _ = V m c main_v0 _
  refine congrArg (V m c main_v0) (funext fun e => Fin.ext ?_)
  obtain ⟨-, -, -, -, -, -, e0, e1, -⟩ := idx_facts t
  match e with
  | ⟨0, _⟩ => show win0_2.index t (0 : Fin 2) * 128 + 1 * n.val = n.val; omega
  | ⟨1, _⟩ => show win0_2.index t (1 : Fin 2) * 256 + 1 * a.val = a.val; omega

/-- Row `r` of the key rows the body loads at point `t` is position `1024 · (t % 2) + r` of the key block. -/
theorem keyRows_apply (t : Fin cfg0.N) (x0 : Vec Ideal S1x2048x128 .f32) (r : Fin 1024) (n : Fin 128) :
    keyRows (grid0.coords t) x0 (ix3 (0 : Fin 1) r n) = x0 (ix3 (0 : Fin 1) (rowOf t r) n) := by
  unfold keyRows
  show x0 _ = x0 _
  refine congrArg x0 (funext fun e => Fin.ext ?_)
  obtain ⟨-, -, -, -, -, -, -, -, -, -, -, e0, e1, e2⟩ := idx_facts t
  match e with
  | ⟨0, _⟩ => show k0_off1 (grid0.coords t) (0 : Fin 3) + 1 * 0 = 0; omega
  | ⟨1, _⟩ => show k0_off1 (grid0.coords t) (1 : Fin 3) + 1 * r.val = 1024 * (t.val % 2) + r.val; omega
  | ⟨2, _⟩ => show k0_off1 (grid0.coords t) (2 : Fin 3) + 1 * n.val = n.val; omega

/-- Entry `(r, m)` of point `t`'s output block is entry `(t / 2, 1024 · (t % 2) + r, m)` of the result array. -/
theorem out_emb (t : Fin cfg0.N) (u : Fin 1) (r : Fin 1024) (mc : Fin 2048) :
    ((cfg0.win 3).blk t).view.emb (ix3 u r mc : S1x1024x2048.Idx) = ix3 (bOf t) (rowOf t r) mc := by
  refine funext fun e => Fin.ext ?_
  obtain ⟨-, -, -, -, -, -, -, -, e0, e1, e2, -⟩ := idx_facts t
  have hu : u.val = 0 := by omega
  match e with
  | ⟨0, _⟩ => show win0_3.index t (0 : Fin 3) * 1 + 1 * u.val = t.val / 2; omega
  | ⟨1, _⟩ => show win0_3.index t (1 : Fin 3) * 1024 + 1 * r.val = 1024 * (t.val % 2) + r.val; omega
  | ⟨2, _⟩ => show win0_3.index t (2 : Fin 3) * 2048 + 1 * mc.val = mc.val; omega

end Cert.Holo.Kern

end
-- ==== Proof.Payloads.lean ====
/-
  The two stored values of the kernel body at an index, over the extended reals.

  Each matrix product into a zero accumulator is, at an output index, the plain sum over the contracted
  coordinate of the products of the operands' entries; a change of float format is the identity; the casts
  only drop or add a leading axis of extent one. So the value written to the scratch at `(l, d)` is
  ∑ₐ (∑ₙ key (l, n) · w2 (n, a)) · value (a, d), and the value written to the output block at `(r, m)` is
  ∑ₙ rows (r, n) · scratch (m, n): the second operand is contracted along its LAST axis, which is the
  transposition the result needs.
-/
import proofs.«167323_j86887188398971_2_alg».proof.Proof.Gen.KernelIdeal.Skeleton
import proofs.«167323_j86887188398971_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Holo.Kern

open Idealize.ShloMosaic Idealize.ShloMosaic.ValueIdx
open Cert.KernelIdeal Cert.KernelIdeal.Gen

/-! ## The three matrix products as plain sums -/

theorem scoresMM_l0 (i : S2048x256.Idx) (q : dot_S2048x128_S128x256_S2048x256_1_0_0_1_n_n.contr.Idx) : (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem scoresMM_r1 (i : S2048x256.Idx) (q : dot_S2048x128_S128x256_S2048x256_1_0_0_1_n_n.contr.Idx) : (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl
/-- Keys (2048 × 128) times summed weights (128 × 256): entry `(p, a)` sums over the key dimension. -/
theorem scoresMM_apply {φ₁ φ₂ : FTy} (l : FVec Ideal S2048x128 φ₁) (r : FVec Ideal S128x256 φ₂) (p : Fin 2048) (a : Fin 256) :
    matmul dot_S2048x128_S128x256_S2048x256_1_0_0_1_n_n none l r (constant (F := Ideal) S2048x256 .f32 0x00000000#32) (ix2 p a)
      = ∑ k : Fin 128, l (ix2 p k) * r (ix2 k a) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p a) ((contrEquiv1 dot_S2048x128_S128x256_S2048x256_1_0_0_1_n_n 128 rfl rfl).symm k) = ix2 p k := funext fun e => Fin.ext (by
    match e with
    | ⟨0, _⟩ => exact scoresMM_l0 _ _
    | ⟨1, _⟩ => exact (dot_S2048x128_S128x256_S2048x256_1_0_0_1_n_n.lhsIdx_val_of_single rfl _ _).trans hk)
  have er : dot_S2048x128_S128x256_S2048x256_1_0_0_1_n_n.rhsIdx (ix2 p a) ((contrEquiv1 dot_S2048x128_S128x256_S2048x256_1_0_0_1_n_n 128 rfl rfl).symm k) = ix2 k a := funext fun e => Fin.ext (by
    match e with
    | ⟨0, _⟩ => exact (dot_S2048x128_S128x256_S2048x256_1_0_0_1_n_n.rhsIdx_val_of_single rfl _ _).trans hk
    | ⟨1, _⟩ => exact scoresMM_r1 _ _)
  rw [el, er]

theorem memMM_l0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem memMM_r1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl
/-- Scores (2048 × 256) times values (256 × 128): entry `(p, d)` sums over the actions. -/
theorem memMM_apply {φ₁ φ₂ : FTy} (l : FVec Ideal S2048x256 φ₁) (r : FVec Ideal S256x128 φ₂) (p : Fin 2048) (a : Fin 128) :
    matmul dot_S2048x256_S256x128_S2048x128_1_0_0_1_n_n none l r (constant (F := Ideal) S2048x128 .f32 0x00000000#32) (ix2 p a)
      = ∑ k : Fin 256, l (ix2 p k) * r (ix2 k a) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p a) ((contrEquiv1 dot_S2048x256_S256x128_S2048x128_1_0_0_1_n_n 256 rfl rfl).symm k) = ix2 p k := funext fun e => Fin.ext (by
    match e with
    | ⟨0, _⟩ => exact memMM_l0 _ _
    | ⟨1, _⟩ => exact (dot_S2048x256_S256x128_S2048x128_1_0_0_1_n_n.lhsIdx_val_of_single rfl _ _).trans hk)
  have er : dot_S2048x256_S256x128_S2048x128_1_0_0_1_n_n.rhsIdx (ix2 p a) ((contrEquiv1 dot_S2048x256_S256x128_S2048x128_1_0_0_1_n_n 256 rfl rfl).symm k) = ix2 k a := funext fun e => Fin.ext (by
    match e with
    | ⟨0, _⟩ => exact (dot_S2048x256_S256x128_S2048x128_1_0_0_1_n_n.rhsIdx_val_of_single rfl _ _).trans hk
    | ⟨1, _⟩ => exact memMM_r1 _ _)
  rw [el, er]

theorem outMM_l0 (i : S1024x2048.Idx) (q : dot_S1024x128_S2048x128_S1024x2048_1_1_0_0_n_n.contr.Idx) : (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem outMM_r0 (i : S1024x2048.Idx) (q : dot_S1024x128_S2048x128_S1024x2048_1_1_0_0_n_n.contr.Idx) : (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- Key rows (1024 × 128) against memory vectors (2048 × 128), BOTH contracted along their last axis: entry
    `(r, m)` sums over the key dimension the row's entry times the `m`-th memory vector's. -/
theorem outMM_apply {φ₁ φ₂ : FTy} (l : FVec Ideal S1024x128 φ₁) (r : FVec Ideal S2048x128 φ₂) (p : Fin 1024) (mc : Fin 2048) :
    matmul dot_S1024x128_S2048x128_S1024x2048_1_1_0_0_n_n none l r (constant (F := Ideal) S1024x2048 .f32 0x00000000#32) (ix2 p mc)
      = ∑ k : Fin 128, l (ix2 p k) * r (ix2 mc k) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p mc) ((contrEquiv1 dot_S1024x128_S2048x128_S1024x2048_1_1_0_0_n_n 128 rfl rfl).symm k) = ix2 p k := funext fun e => Fin.ext (by
    match e with
    | ⟨0, _⟩ => exact outMM_l0 _ _
    | ⟨1, _⟩ => exact (dot_S1024x128_S2048x128_S1024x2048_1_1_0_0_n_n.lhsIdx_val_of_single rfl _ _).trans hk)
  have er : dot_S1024x128_S2048x128_S1024x2048_1_1_0_0_n_n.rhsIdx (ix2 p mc) ((contrEquiv1 dot_S1024x128_S2048x128_S1024x2048_1_1_0_0_n_n 128 rfl rfl).symm k) = ix2 mc k := funext fun e => Fin.ext (by
    match e with
    | ⟨0, _⟩ => exact outMM_r0 _ _
    | ⟨1, _⟩ => exact (dot_S1024x128_S2048x128_S1024x2048_1_1_0_0_n_n.rhsIdx_val_of_single rfl _ _).trans hk)
  rw [el, er]

/-! ## The two stored values at an index -/

/-- What the first row tile writes to the scratch, at `(p, d)`. -/
theorem pay1_apply (x0 : Vec Ideal S1x2048x128 .f32) (x2 : Vec Ideal S128x256 .f32) (x1 : Vec Ideal S1x256x128 .f32)
    (p : Fin 2048) (d : Fin 128) :
    k0_pay1 (F := Ideal) x0 x2 x1 (ix2 p d)
      = ∑ a : Fin 256, (∑ n : Fin 128, x0 (ix3 (0 : Fin 1) p n) * x2 (ix2 n a)) * x1 (ix3 (0 : Fin 1) a d) := by
  unfold k0_pay1
  refine (congrFun (shapeCast_self _ _) (ix2 p d)).trans ?_
  refine (memMM_apply _ _ p d).trans ?_
  refine Finset.sum_congr rfl fun a _ => ?_
  refine congrArg₂ (· * ·) ?_ ?_
  · refine (scoresMM_apply _ _ p a).trans ?_
    refine Finset.sum_congr rfl fun n _ => ?_
    refine congrArg₂ (· * ·) ?_ ?_
    · exact shapeCast_1ab_ab_apply x0 _ p n
    · exact congrFun (shapeCast_self x2 _) (ix2 n a)
  · exact shapeCast_1ab_ab_apply x1 _ a d

/-- What every row tile writes to its output block, at `(r, m)` of the block. -/
theorem pay2_apply (v6 : Vec Ideal S1x1024x128 .f32) (v9 : Vec Ideal S2048x128 .f32) (u : Fin 1) (r : Fin 1024) (mc : Fin 2048) :
    k0_pay2 (F := Ideal) v6 v9 (ix3 u r mc) = ∑ n : Fin 128, v6 (ix3 (0 : Fin 1) r n) * v9 (ix2 mc n) := by
  unfold k0_pay2
  refine (shapeCast_ab_1ab_apply _ _ u r mc).trans ?_
  refine (outMM_apply _ _ r mc).trans ?_
  refine Finset.sum_congr rfl fun n _ => ?_
  refine congrArg₂ (· * ·) ?_ rfl
  exact shapeCast_1ab_ab_apply v6 _ r n

/-! ## Against the specification -/

/-- If the three loaded blocks are batch `b`'s keys, the summed weights and batch `b`'s values, the scratch
    ends holding batch `b`'s memory vectors. -/
theorem pay1_eq_mem (key : SKey.Idx → EReal) (value : SVal.Idx → EReal) (w2 : SW2.Idx → EReal) (b : Fin 32)
    (x0 : Vec Ideal S1x2048x128 .f32) (x2 : Vec Ideal S128x256 .f32) (x1 : Vec Ideal S1x256x128 .f32)
    (h0 : ∀ (p : Fin 2048) (n : Fin 128), x0 (ix3 (0 : Fin 1) p n) = key (ix3 b p n))
    (h1 : ∀ (a : Fin 256) (d : Fin 128), x1 (ix3 (0 : Fin 1) a d) = value (ix3 b a d))
    (h2 : ∀ (n : Fin 128) (a : Fin 256), x2 (ix2 n a) = w2 (ix2 n a)) :
    k0_pay1 (F := Ideal) x0 x2 x1 = memBlock key value w2 b := by
  funext j
  obtain ⟨p, d, rfl⟩ : ∃ (p : Fin 2048) (d : Fin 128), j = ix2 p d := ⟨j 0, j 1, eq_ix2 j⟩
  rw [pay1_apply]
  show _ = ∑ a : Fin 256, (∑ n : Fin 128, key (ix3 b p n) * w2 (ix2 n a)) * value (ix3 b a d)
  refine Finset.sum_congr rfl fun a _ => ?_
  rw [h1 a d]
  refine congrArg (· * value (ix3 b a d)) (Finset.sum_congr rfl fun n _ => ?_)
  rw [h0 p n, h2 n a]

/-- If row `r` of the loaded key rows is position `l` of batch `b`, and the scratch holds batch `b`'s memory
    vectors, entry `(r, m)` of the output block is the result at `(b, l, m)`. -/
theorem pay2_eq_q (key : SKey.Idx → EReal) (value : SVal.Idx → EReal) (w2 : SW2.Idx → EReal) (b : Fin 32)
    (kr : Vec Ideal S1x1024x128 .f32) (u : Fin 1) (r : Fin 1024) (mc : Fin 2048) (l : Fin 2048)
    (hk : ∀ n : Fin 128, kr (ix3 (0 : Fin 1) r n) = key (ix3 b l n)) :
    k0_pay2 (F := Ideal) kr (memBlock key value w2 b) (ix3 u r mc) = qAt key value w2 b l mc := by
  rw [pay2_apply]
  show _ = ∑ n : Fin 128, key (ix3 b l n) * mem key value w2 b mc n
  refine Finset.sum_congr rfl fun n _ => ?_
  rw [hk n]
  rfl

end Cert.Holo.Kern

end
-- ==== Proof.KernelValue.lean ====
/-
  The kernel's result array is `qvals` of the keys, the values and the summed weights.

  The scratch after grid point `t` holds the memory vectors of batch `t / 2`: an even point (the first row tile
  of its batch) writes them from its own blocks; an odd point leaves the scratch as the point before left it,
  and the point before an odd point is the even point of the same batch. So at every point the output block is
  the tile's key rows against the memory vectors of the point's own batch, which is the block of `qvals` the
  point's output window names; the 64 output blocks tile the result array (32 batches × 2 row tiles, all
  2048 columns), so the array after the run is `qvals`.
-/
import proofs.«167323_j86887188398971_2_alg».proof.Proof.Blocks
import proofs.«167323_j86887188398971_2_alg».proof.Proof.Payloads
import proofs.«167323_j86887188398971_2_alg».proof.Proof.Gen.KernelIdeal.Value
import Idealize.ShloMosaic.Lib.StableHlo.Run

noncomputable section

namespace Cert.Holo.Kern

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The result array the kernel ends with. -/
abbrev result (c : Dev nD) : SOut.Idx → EReal := qvals (keyArr m c) (valArr m c) (w2Arr m c)

/-- The memory vectors of a point's batch. -/
abbrev memOf (c : Dev nD) (t : Fin cfg0.N) : Vec Ideal S2048x128 .f32 :=
  memBlock (keyArr m c) (valArr m c) (w2Arr m c) (bOf t)

/-! ## The scratch carried between the points -/

/-- After an even point the scratch holds the memory vectors of the point's batch: the point wrote them. -/
theorem scratch_even (c : Dev nD) (t : Fin cfg0.N) (h0 : t.val % 2 = 0) :
    (outsAt0 m c t.val t.isLt).2 = memOf m c t := by
  rw [outsAt0_A m c t h0]
  dsimp only
  exact (scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
    (pay1_eq_mem (keyArr m c) (valArr m c) (w2Arr m c) (bOf t) (iblk m c 0 t) (iblk m c 2 t) (iblk m c 1 t)
      (key_block m c t) (val_block m c t) (w2_block m c t))

/-- After any point the scratch holds the memory vectors of the point's batch. -/
theorem scratch_eq (c : Dev nD) (t : Fin cfg0.N) : (outsAt0 m c t.val t.isLt).2 = memOf m c t := by
  by_cases h0 : t.val % 2 = 0
  · exact scratch_even m c t h0
  · have hN : cfg0.N = 64 := N_0
    have hlt : t.val - 1 < cfg0.N := Nat.lt_of_le_of_lt (Nat.sub_le _ _) t.isLt
    rw [outsAt0_B m c t h0]
    dsimp only
    unfold sout0_B_0
    refine (scratch_even m c ⟨t.val - 1, hlt⟩ (by dsimp only; omega)).trans ?_
    refine congrArg (memBlock (keyArr m c) (valArr m c) (w2Arr m c)) (Fin.ext ?_)
    show (t.val - 1) / 2 = t.val / 2
    omega

/-! ## What each point writes back -/

/-- At every point the output block is the tile's key rows against the memory vectors of the point's batch. -/
theorem flushed_block (c : Dev nD) (t : Fin cfg0.N) :
    (dats m 0 c).flushed 3 t = (cfg0.win 3).cut (grid0.coords t)
      (k0_pay2 (F := Ideal) (keyRows (grid0.coords t) (iblk m c 0 t)) (memOf m c t)) := by
  by_cases h0 : t.val % 2 = 0
  · rw [Cert.KernelIdeal.Value.flushed3_A m c t h0]
    refine congrArg ((cfg0.win 3).cut (grid0.coords t)) ?_
    refine (out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
    exact congrArg (k0_pay2 (F := Ideal) (keyRows (grid0.coords t) (iblk m c 0 t)))
      (pay1_eq_mem (keyArr m c) (valArr m c) (w2Arr m c) (bOf t) (iblk m c 0 t) (iblk m c 2 t) (iblk m c 1 t)
        (key_block m c t) (val_block m c t) (w2_block m c t))
  · have hN : cfg0.N = 64 := N_0
    have hlt : t.val - 1 < cfg0.N := Nat.lt_of_le_of_lt (Nat.sub_le _ _) t.isLt
    rw [Cert.KernelIdeal.Value.flushed3_B m c t h0]
    refine congrArg ((cfg0.win 3).cut (grid0.coords t)) ?_
    refine (out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) hlt).2).trans ?_
    refine congrArg (k0_pay2 (F := Ideal) (keyRows (grid0.coords t) (iblk m c 0 t))) ?_
    refine (scratch_eq m c ⟨t.val - 1, hlt⟩).trans ?_
    refine congrArg (memBlock (keyArr m c) (valArr m c) (w2Arr m c)) (Fin.ext ?_)
    show (t.val - 1) / 2 = t.val / 2
    omega

/-- WHAT POINT `t` WRITES BACK is block `t` of the result. -/
theorem flushed_eq (c : Dev nD) (t : Fin cfg0.N) :
    (dats m 0 c).flushed 3 t = ((cfg0.win 3).blk t).view.read (Elt Ideal) (result m c) := by
  rw [flushed_block m c t]
  funext y
  obtain ⟨u, r, mc, rfl⟩ : ∃ (u : Fin 1) (r : Fin 1024) (mc : Fin 2048), y = ix3 u r mc := ⟨y 0, y 1, y 2, eq_ix3 y⟩
  have hk : ∀ n : Fin 128, keyRows (grid0.coords t) (iblk m c 0 t) (ix3 (0 : Fin 1) r n)
      = keyArr m c (ix3 (bOf t) (rowOf t r) n) :=
    fun n => (keyRows_apply t (iblk m c 0 t) r n).trans (key_block m c t (rowOf t r) n)
  show k0_pay2 (F := Ideal) (keyRows (grid0.coords t) (iblk m c 0 t)) (memOf m c t) (ix3 u r mc) = _
  refine (pay2_eq_q (keyArr m c) (valArr m c) (w2Arr m c) (bOf t) (keyRows (grid0.coords t) (iblk m c 0 t))
    u r mc (rowOf t r) hk).trans ?_
  rw [View.read_apply]
  show _ = qvals (keyArr m c) (valArr m c) (w2Arr m c) (((cfg0.win 3).blk t).view.emb (ix3 u r mc : S1x1024x2048.Idx))
  rw [out_emb t u r mc, qvals_ix3]

/-! ## The blocks tile the array -/

/-- An index of the result array is in point `t`'s block iff each coordinate is in the block's range. -/
theorem mem_blk (t : Fin cfg0.N) (i : S32x2048x2048.Idx) :
    i ∈ ((cfg0.win 3).blk t).view.set ↔ ∀ a : Fin 3, win0_3.index t a * S1x1024x2048.size a ≤ (i a).val
      ∧ (i a).val < win0_3.index t a * S1x1024x2048.size a + S1x1024x2048.size a := by
  show i ∈ ((View.whole main_v1).slice (win0_3.rect t)).set ↔ _
  rw [View.set_slice_whole, Rect.mem_set_unit]
  exact Iff.rfl

/-- Entry `(b, l, ·)` is in the block of point `2 b + l / 1024`. -/
theorem cover (i : S32x2048x2048.Idx) :
    ∃ t : Fin cfg0.N, (cfg0.win 3).flush t = true ∧ i ∈ ((cfg0.win 3).blk t).view.set := by
  have hN : cfg0.N = 64 := N_0
  have h0 : (i 0).val < 32 := (i 0).isLt
  have h1 : (i 1).val < 2048 := (i 1).isLt
  have h2 : (i 2).val < 2048 := (i 2).isLt
  have hlt : 2 * (i 0).val + (i 1).val / 1024 < cfg0.N := by omega
  refine ⟨⟨2 * (i 0).val + (i 1).val / 1024, hlt⟩, flush0_3 _, ?_⟩
  rw [mem_blk]
  obtain ⟨-, -, -, -, -, -, -, -, e0, e1, e2, -⟩ := idx_facts ⟨2 * (i 0).val + (i 1).val / 1024, hlt⟩
  dsimp only at e0 e1 e2
  intro a
  match a with
  | ⟨0, _⟩ =>
    show win0_3.index ⟨2 * (i 0).val + (i 1).val / 1024, hlt⟩ (0 : Fin 3) * 1 ≤ (i 0).val
      ∧ (i 0).val < win0_3.index ⟨2 * (i 0).val + (i 1).val / 1024, hlt⟩ (0 : Fin 3) * 1 + 1
    omega
  | ⟨1, _⟩ =>
    show win0_3.index ⟨2 * (i 0).val + (i 1).val / 1024, hlt⟩ (1 : Fin 3) * 1024 ≤ (i 1).val
      ∧ (i 1).val < win0_3.index ⟨2 * (i 0).val + (i 1).val / 1024, hlt⟩ (1 : Fin 3) * 1024 + 1024
    omega
  | ⟨2, _⟩ =>
    show win0_3.index ⟨2 * (i 0).val + (i 1).val / 1024, hlt⟩ (2 : Fin 3) * 2048 ≤ (i 2).val
      ∧ (i 2).val < win0_3.index ⟨2 * (i 0).val + (i 1).val / 1024, hlt⟩ (2 : Fin 3) * 2048 + 2048
    omega

/-! ## The array after the run -/

theorem final (c : Dev nD) : (dats m 0 c).arrAt 3 cfg0.N = result m c :=
  (dats m 0 c).arrAt_eq_of_cover 3 (result m c) (fun t _ => flushed_eq m c t) cover

/-- The summed weights the region finds are the host's sum of the weights over their middle axis. -/
theorem w2Arr_eq (c : Dev nD) :
    w2Arr m c = Host.reduceAdd (m ((c : Thread nD τ).loc main_arg2)) (constant (F := Ideal) S_ .f32 0x00000000#32)
      Facts₀.reducesTo_S128x64x256_S128x256_d1 Facts₀.h_S_ := by
  dsimp only [w2Arr, Gen.V, Gen.hostOps0]
  after_results

/-- The kernel's run: the result array ends at `qvals`, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Holo.Kern

end
-- ==== Proof.RefIsSpec.lean ====
/-
  The reference's result is the specification `qvals`: its three `dot_general`s, read one at a time at an index,
  are the three nested sums, the operand indices of each being the index of the result with the contracted
  coordinate put in its place.
-/
import proofs.«167323_j86887188398971_2_alg».proof.Proof.Gen.ReferenceIdeal.Read
import proofs.«167323_j86887188398971_2_alg».proof.Proof.Spec

noncomputable section

namespace Cert.Holo.Ref

open Cert.ReferenceIdeal Cert.ReferenceIdeal.Read Idealize.ShloMosaic Idealize.ShloMosaic.ValueIdx

/-- Scores at `(b, l, a)`: the key is read at `(b, l, n)`, -/
theorem l1 (b : Fin 32) (l : Fin 2048) (a : Fin 256) (k : Fin 128) : lidx_main_v1 (ix3 b l a) k = ix3 b l k :=
  funext fun d => by match d with | ⟨0, _⟩ => rfl | ⟨1, _⟩ => rfl | ⟨2, _⟩ => rfl
/-- and the summed weights at `(n, a)`. -/
theorem r1 (b : Fin 32) (l : Fin 2048) (a : Fin 256) (k : Fin 128) : ridx_main_v1 (ix3 b l a) k = ix2 k a :=
  funext fun d => by match d with | ⟨0, _⟩ => rfl | ⟨1, _⟩ => rfl
/-- Memory at `(b, l, d)`: the scores are read at `(b, l, a)`, -/
theorem l2 (b : Fin 32) (l : Fin 2048) (d : Fin 128) (k : Fin 256) : lidx_main_v2 (ix3 b l d) k = ix3 b l k :=
  funext fun e => by match e with | ⟨0, _⟩ => rfl | ⟨1, _⟩ => rfl | ⟨2, _⟩ => rfl
/-- and the values at `(b, a, d)`. -/
theorem r2 (b : Fin 32) (l : Fin 2048) (d : Fin 128) (k : Fin 256) : ridx_main_v2 (ix3 b l d) k = ix3 b k d :=
  funext fun e => by match e with | ⟨0, _⟩ => rfl | ⟨1, _⟩ => rfl | ⟨2, _⟩ => rfl
/-- Result at `(b, l, m)`: the key is read at `(b, l, n)`, -/
theorem l3 (b : Fin 32) (l m : Fin 2048) (k : Fin 128) : lidx_main_v3 (ix3 b l m) k = ix3 b l k :=
  funext fun e => by match e with | ⟨0, _⟩ => rfl | ⟨1, _⟩ => rfl | ⟨2, _⟩ => rfl
/-- and the memory at `(b, m, n)`. -/
theorem r3 (b : Fin 32) (l m : Fin 2048) (k : Fin 128) : ridx_main_v3 (ix3 b l m) k = ix3 b m k :=
  funext fun e => by match e with | ⟨0, _⟩ => rfl | ⟨1, _⟩ => rfl | ⟨2, _⟩ => rfl

/-- The reference's last stage is `qvals` of the keys, the values and the summed weights. -/
theorem result_eq (x0 : (⟨S32x2048x128, .f32⟩ : BufTy).Contents (Elt Ideal)) (x1 : (⟨S32x256x128, .f32⟩ : BufTy).Contents (Elt Ideal))
    (x2 : (⟨S128x64x256, .f32⟩ : BufTy).Contents (Elt Ideal)) :
    val_main_v3 (F := Ideal) x0 x1 x2 = Cert.Holo.qvals x0 x1 (val_main_v0 (F := Ideal) x2) := by
  funext i
  obtain ⟨b, l, mm, rfl⟩ : ∃ (b : Fin 32) (l : Fin 2048) (mm : Fin 2048), i = ix3 b l mm := ⟨i 0, i 1, i 2, eq_ix3 i⟩
  rw [val_main_v3_apply]
  show _ = ∑ n : Fin 128, x0 (ix3 b l n) * Cert.Holo.mem x0 x1 (val_main_v0 (F := Ideal) x2) b mm n
  refine Finset.sum_congr rfl fun n _ => ?_
  rw [l3, r3, val_main_v2_apply]
  refine congrArg (x0 (ix3 b l n) * ·) ?_
  show _ = ∑ a : Fin 256, Cert.Holo.scores x0 (val_main_v0 (F := Ideal) x2) b mm a * x1 (ix3 b a n)
  refine Finset.sum_congr rfl fun a _ => ?_
  rw [l2, r2, val_main_v1_apply]
  refine congrArg (· * x1 (ix3 b a n)) ?_
  show _ = ∑ n' : Fin 128, x0 (ix3 b mm n') * val_main_v0 (F := Ideal) x2 (ix2 n' a)
  refine Finset.sum_congr rfl fun n' _ => ?_
  rw [l1, r1]

end Cert.Holo.Ref

end
-- ==== Proof.lean ====
/- The kernel and its reference compute one function over the extended reals.

   With the weights summed over their middle axis, `w2 (n, a) = 0 + ∑ₖ W (n, k, a)` — the SAME host reduction
   opens both programs, so it is never unfolded —, both compute, for each batch `b`,
     scores (l, a) = ∑ₙ key (b, l, n) · w2 (n, a),   mem (l, d) = ∑ₐ scores (l, a) · value (b, a, d),
     q (b, l, m)   = ∑ₙ key (b, l, n) · mem (m, n).
   The reference does it with three `dot_general`s over whole arrays. The kernel walks a 32 × 2 grid: the first
   row tile of a batch computes the batch's `mem` into a scratch buffer, and both row tiles multiply their 1024
   key rows against the scratch's contents. Read at an index every product into a zero accumulator is the plain
   sum over the contracted coordinate and every change of float format is the identity, so no law of
   arithmetic is needed beyond reading the sums: the two sides are the same nested sums term by term, and the
   finiteness of the inputs is not used.

   The modules: Spec (the sums), RefIsSpec (the reference is the sums), Pieces (what one run of the body
   leaves, as values of what it loaded), Payloads (those values at an index), Blocks (where a grid point's
   blocks sit in the arrays), KernelValue (the scratch holds the point's batch's `mem`; each written block
   is a block of the result; the blocks tile the array). -/
import proofs.«167323_j86887188398971_2_alg».proof.Defs
import proofs.«167323_j86887188398971_2_alg».proof.Proof.Gen.Kernel
import proofs.«167323_j86887188398971_2_alg».proof.Proof.Gen.Kernel.Skeleton
import proofs.«167323_j86887188398971_2_alg».proof.Proof.Gen.Kernel.Launch
import proofs.«167323_j86887188398971_2_alg».proof.Proof.Gen.Kernel.Points
import proofs.«167323_j86887188398971_2_alg».proof.Proof.Gen.Kernel.Frame
import proofs.«167323_j86887188398971_2_alg».proof.Proof.Gen.KernelIdeal
import proofs.«167323_j86887188398971_2_alg».proof.Proof.Gen.KernelIdeal.Skeleton
import proofs.«167323_j86887188398971_2_alg».proof.Proof.Gen.KernelIdeal.Launch
import proofs.«167323_j86887188398971_2_alg».proof.Proof.Gen.KernelIdeal.Points
import proofs.«167323_j86887188398971_2_alg».proof.Proof.Gen.KernelIdeal.Frame
import proofs.«167323_j86887188398971_2_alg».proof.Proof.Gen.ReferenceIdeal
import proofs.«167323_j86887188398971_2_alg».proof.Proof.Gen.KernelIdeal.Value
import proofs.«167323_j86887188398971_2_alg».proof.Proof.Gen.ReferenceIdeal.Run
import proofs.«167323_j86887188398971_2_alg».proof.Proof.Gen.ReferenceIdeal.Read
import proofs.«167323_j86887188398971_2_alg».proof.Proof.Gen.Pre_finite_inputs
import proofs.«167323_j86887188398971_2_alg».proof.Proof.KernelValue
import proofs.«167323_j86887188398971_2_alg».proof.Proof.RefIsSpec
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ
/-- So does the kernel read over the extended reals. -/
theorem frame_ki : Cert.frame_KernelIdeal := fun m ρ _ => Cert.KernelIdeal.Gen.frame m ρ
/-- The reference is five host operations in a row: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- From arguments that agree, the kernel's result array ends at `qvals` of the keys, the values and the summed
    weights, and the reference's last stage is `qvals` of the same three. -/
theorem algebraic : Cert.algebraic_KernelIdeal_ReferenceIdeal := by
  intro m ρ m' ρ' _ hagree
  refine ⟨fun c => Cert.Holo.Kern.result m c, Cert.Holo.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Holo.Ref.result_eq, (hagree c).1, (hagree c).2.1, (hagree c).2.2]
  have e := Cert.Holo.Kern.w2Arr_eq m c
  show Cert.Holo.qvals _ _ _ = Cert.Holo.qvals _ _ (Cert.Holo.Kern.w2Arr m c)
  rw [e]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
